-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S800000 .f32) (main_arg3 : FVec F S50000x64 .f32) (main_arg4 : FVec F S128x64 .f32) (main_arg5 : FVec F S64 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S50000 : Shape := ⟨1, ![50000]⟩
abbrev S50000x1 : Shape := ⟨2, ![50000, 1]⟩
abbrev S64x64 : Shape := ⟨2, ![64, 64]⟩
abbrev S1x64 : Shape := ⟨2, ![1, 64]⟩
abbrev S5000x64 : Shape := ⟨2, ![5000, 64]⟩

abbrev nBuf : Space → Nat
  | .hbm => 47
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000x64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S1x64, .f32⟩
  | .hbm, ⟨45, _⟩ => ⟨S1x64, .f32⟩
  | .hbm, ⟨46, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x64 : Shape := ⟨2, ![1, 64]⟩

abbrev nBuf : Space → Nat
  | .hbm => 56
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000x64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x64, .f32⟩
  | .hbm, ⟨39, _⟩ => ⟨S50000x64, .f32⟩
  | .hbm, ⟨40, _⟩ => ⟨S50000x128, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S50000x128, .f32⟩
  | .hbm, ⟨49, _⟩ => ⟨S50000x64, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000x64, .f32⟩
  | .hbm, ⟨55, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.HostPrefix.lean ====
/-
  The arrays the kernel's region finds when it starts, as functions of the program's arguments.

  Before the region the program computes, on the host, the aggregated array (the edge-weighted rows gathered along the
  edges' sources, added up per destination node and divided by the edge count floored at one), cuts each 128 × 64 weight
  matrix into its upper and lower 64 × 64 halves, and lays each bias vector out as one row. The aggregated array is the
  very chain of host operations the reference program starts with, so it is named here by the reference's own stage for
  it and never opened; the halves are slices of the weight matrices from rows 0 and 64; the bias rows are the vectors
  recast.
-/
import proofs.«181001_j67405216744187_1_alg».proof.Proof.Gen.KernelIdeal.Frame
import proofs.«181001_j67405216744187_1_alg».proof.Proof.Gen.ReferenceIdeal.Read
import Idealize.ShloMosaic.Lib.StableHlo.Run

noncomputable section

namespace Cert.Mlp.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 16384 in
set_option maxHeartbeats 2000000 in
/-- The aggregated array at region entry is the reference's stage for it, of the node array, the edge list and the edge
    weights as launched. -/
theorem V_agg (c : Dev nD) :
    (V m c main_v25 : S50000x64.Idx → Elt F .f32)
      = Cert.ReferenceIdeal.Read.val_main_v25 (F := F) (m ((c : Thread nD τ).loc main_arg0))
          (m ((c : Thread nD τ).loc main_arg1)) (m ((c : Thread nD τ).loc main_arg2)) := by
  dsimp only [V, hostOps0]
  after_results_simp <;> rfl

/-- The upper half of the message weights: rows 0 to 63 of the matrix as launched. -/
theorem V_wm1 (c : Dev nD) :
    (V m c main_v26 : S64x64.Idx → Elt F .f32)
      = extractStridedSlice S64x64 ![0, 0] (m ((c : Thread nD τ).loc main_arg4)) slices_S128x64_S64x64_0_0 := by
  dsimp only [V, hostOps0]
  after_results_simp <;> rfl

/-- The lower half of the message weights: rows 64 to 127. -/
theorem V_wm2 (c : Dev nD) :
    (V m c main_v27 : S64x64.Idx → Elt F .f32)
      = extractStridedSlice S64x64 ![64, 0] (m ((c : Thread nD τ).loc main_arg4)) slices_S128x64_S64x64_64_0 := by
  dsimp only [V, hostOps0]
  after_results_simp <;> rfl

/-- The upper half of the update weights. -/
theorem V_wu1 (c : Dev nD) :
    (V m c main_v28 : S64x64.Idx → Elt F .f32)
      = extractStridedSlice S64x64 ![0, 0] (m ((c : Thread nD τ).loc main_arg6)) slices_S128x64_S64x64_0_0 := by
  dsimp only [V, hostOps0]
  after_results_simp <;> rfl

/-- The lower half of the update weights. -/
theorem V_wu2 (c : Dev nD) :
    (V m c main_v29 : S64x64.Idx → Elt F .f32)
      = extractStridedSlice S64x64 ![64, 0] (m ((c : Thread nD τ).loc main_arg6)) slices_S128x64_S64x64_64_0 := by
  dsimp only [V, hostOps0]
  after_results_simp <;> rfl

/-- The message bias laid out as one row. -/
theorem V_bm (c : Dev nD) :
    (V m c main_v30 : S1x64.Idx → Elt F .f32)
      = shapeCast S1x64 (m ((c : Thread nD τ).loc main_arg5)) shapeCasts_S64_S1x64 := by
  dsimp only [V, hostOps0]
  after_results_simp <;> rfl

/-- The update bias laid out as one row. -/
theorem V_bu (c : Dev nD) :
    (V m c main_v31 : S1x64.Idx → Elt F .f32)
      = shapeCast S1x64 (m ((c : Thread nD τ).loc main_arg7)) shapeCasts_S64_S1x64 := by
  dsimp only [V, hostOps0]
  after_results_simp <;> rfl

end Cert.Mlp.Host

end
-- ==== Proof.Spec.lean ====
/-
  The mathematics of the two stacked dense layers, on the extended reals.

  A dense layer here takes a pair of rows `a, b` of 64 entries each, two 64 × 64 weight blocks `W1, W2` (the upper and the
  lower half of one 128 × 64 weight matrix), a bias row `c` and a floor `z`, and returns the row
  `q ↦ max ((∑ k, a k · W1 k q + ∑ k, b k · W2 k q) + c q) z`. Written with the two halves kept apart this is the product of
  the halves summed; written with the rows joined it is ONE product over 128 terms. The two agree because a finite sum over
  128 indices is the sum over the first 64 plus the sum over the last 64 (`sum_halves`): only associativity and
  commutativity of addition are used, so no entry need be finite.

  `rowOut` stacks two such layers: the message layer on the aggregated row and the embedding row, then the update layer on
  the node's own row and the message. `out` is the whole array: entry `(p, q)` is `rowOut` of row `p` of the three arrays.
-/
import Idealize.ShloMosaic.PureOps.Ideal
import Idealize.ShloMosaic.Lib.ValueIdx
import Mathlib.Algebra.BigOperators.Fin

noncomputable section

namespace Cert.Mlp

open Idealize.ShloMosaic Idealize.ShloMosaic.ValueIdx

/-- One dense layer on a pair of rows, the weight matrix given as its two 64 × 64 halves. -/
def dense (a b : Fin 64 → EReal) (W1 W2 : Fin 64 → Fin 64 → EReal) (c : Fin 64 → EReal) (z : EReal) : Fin 64 → EReal :=
  fun q => max ((∑ k : Fin 64, a k * W1 k q + ∑ k : Fin 64, b k * W2 k q) + c q) z

/-- The message layer on `(a, e)`, then the update layer on `(x, message)`. -/
def rowOut (a e x : Fin 64 → EReal) (Wm1 Wm2 : Fin 64 → Fin 64 → EReal) (bm : Fin 64 → EReal)
    (Wu1 Wu2 : Fin 64 → Fin 64 → EReal) (bu : Fin 64 → EReal) (z : EReal) : Fin 64 → EReal :=
  dense x (dense a e Wm1 Wm2 bm z) Wu1 Wu2 bu z

/-- A sum over 128 indices is the sum over the first 64 plus the sum over the last 64. -/
theorem sum_halves (f : Fin 128 → EReal) :
    ∑ k : Fin 128, f k = ∑ k : Fin 64, f ⟨k.val, by omega⟩ + ∑ k : Fin 64, f ⟨64 + k.val, by omega⟩ :=
  Fin.sum_univ_add (M := EReal) (a := 64) (b := 64) f

/-- The upper half of a 128 × 64 weight matrix, by coordinates. -/
def upper (W : (⟨2, ![128, 64]⟩ : Shape).Idx → EReal) : Fin 64 → Fin 64 → EReal :=
  fun k q => W (ix2 (⟨k.val, by omega⟩ : Fin 128) q)

/-- The lower half of a 128 × 64 weight matrix, by coordinates. -/
def lower (W : (⟨2, ![128, 64]⟩ : Shape).Idx → EReal) : Fin 64 → Fin 64 → EReal :=
  fun k q => W (ix2 (⟨64 + k.val, by omega⟩ : Fin 128) q)

/-- The whole result: entry `(p, q)` is `rowOut` of row `p` of the aggregated array `A`, the embedding array `E` and the
    node array `X`, with the two weight matrices cut into halves and the floor the value of the zero word. -/
def out (A E X : (⟨2, ![50000, 64]⟩ : Shape).Idx → EReal) (Wm : (⟨2, ![128, 64]⟩ : Shape).Idx → EReal)
    (bm : (⟨1, ![64]⟩ : Shape).Idx → EReal) (Wu : (⟨2, ![128, 64]⟩ : Shape).Idx → EReal)
    (bu : (⟨1, ![64]⟩ : Shape).Idx → EReal) : (⟨2, ![50000, 64]⟩ : Shape).Idx → EReal :=
  fun i => rowOut (fun k => A (ix2 (i 0) k)) (fun k => E (ix2 (i 0) k)) (fun k => X (ix2 (i 0) k))
    (upper Wm) (lower Wm) (fun q => bm (ix1 q)) (upper Wu) (lower Wu) (fun q => bu (ix1 q))
    (Ideal.ofBits .f32 0x00000000#32) (i 1)

theorem out_ix2 (A E X : (⟨2, ![50000, 64]⟩ : Shape).Idx → EReal) (Wm : (⟨2, ![128, 64]⟩ : Shape).Idx → EReal)
    (bm : (⟨1, ![64]⟩ : Shape).Idx → EReal) (Wu : (⟨2, ![128, 64]⟩ : Shape).Idx → EReal)
    (bu : (⟨1, ![64]⟩ : Shape).Idx → EReal) (p : Fin 50000) (q : Fin 64) :
    out A E X Wm bm Wu bu (ix2 p q)
      = rowOut (fun k => A (ix2 p k)) (fun k => E (ix2 p k)) (fun k => X (ix2 p k))
          (upper Wm) (lower Wm) (fun q => bm (ix1 q)) (upper Wu) (lower Wu) (fun q => bu (ix1 q))
          (Ideal.ofBits .f32 0x00000000#32) q := rfl

end Cert.Mlp

end
-- ==== Proof.Blocks.lean ====
/-
  The input windows' blocks at a grid point, entry by entry, as entries of the program's arguments.

  The grid has ten points. At point `t` each of the three row windows (the aggregated array, the embedding array, the
  node array) holds rows `5000 t` to `5000 t + 4999` of its array: entry `(r, k)` of the block is entry
  `(5000 t + r, k)` of the array. The four weight windows and the two bias windows hold their whole array at every
  point. The weight arrays are the upper and lower halves of the 128 × 64 matrices and the bias arrays the bias vectors
  laid out as one row, so their entries are entries of the matrices and vectors themselves.
-/
import proofs.«181001_j67405216744187_1_alg».proof.Proof.HostPrefix
import proofs.«181001_j67405216744187_1_alg».proof.Proof.Spec
import Idealize.ShloMosaic.Lib.Pipeline.Value
import Idealize.ShloMosaic.Lib.ValueIdx
import Idealize.ShloMosaic.Lib.ValueLayout

noncomputable section

namespace Cert.Mlp.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The printed index maps, decided over the ten grid points

The three row windows and the output window sit at block row `t`, block column 0; the weight and bias windows stay at
block (0, 0). -/

theorem idx_rows0_0 : ∀ t : Fin cfg0.N, win0_0.index t (0 : Fin 2) = t.val :=
  (by decide +kernel : ∀ t : Fin grid0.N, win0_0.index t (0 : Fin 2) = t.val)
theorem idx_rows0_1 : ∀ t : Fin cfg0.N, win0_0.index t (1 : Fin 2) = 0 :=
  (by decide +kernel : ∀ t : Fin grid0.N, win0_0.index t (1 : Fin 2) = 0)

theorem idx_rows1_0 : ∀ t : Fin cfg0.N, win0_1.index t (0 : Fin 2) = t.val :=
  (by decide +kernel : ∀ t : Fin grid0.N, win0_1.index t (0 : Fin 2) = t.val)
theorem idx_rows1_1 : ∀ t : Fin cfg0.N, win0_1.index t (1 : Fin 2) = 0 :=
  (by decide +kernel : ∀ t : Fin grid0.N, win0_1.index t (1 : Fin 2) = 0)

theorem idx_rows2_0 : ∀ t : Fin cfg0.N, win0_2.index t (0 : Fin 2) = t.val :=
  (by decide +kernel : ∀ t : Fin grid0.N, win0_2.index t (0 : Fin 2) = t.val)
theorem idx_rows2_1 : ∀ t : Fin cfg0.N, win0_2.index t (1 : Fin 2) = 0 :=
  (by decide +kernel : ∀ t : Fin grid0.N, win0_2.index t (1 : Fin 2) = 0)

theorem idx_rows9_0 : ∀ t : Fin cfg0.N, win0_9.index t (0 : Fin 2) = t.val :=
  (by decide +kernel : ∀ t : Fin grid0.N, win0_9.index t (0 : Fin 2) = t.val)
theorem idx_rows9_1 : ∀ t : Fin cfg0.N, win0_9.index t (1 : Fin 2) = 0 :=
  (by decide +kernel : ∀ t : Fin grid0.N, win0_9.index t (1 : Fin 2) = 0)

theorem idx_fix3_0 : ∀ t : Fin cfg0.N, win0_3.index t (0 : Fin 2) = 0 :=
  (by decide +kernel : ∀ t : Fin grid0.N, win0_3.index t (0 : Fin 2) = 0)
theorem idx_fix3_1 : ∀ t : Fin cfg0.N, win0_3.index t (1 : Fin 2) = 0 :=
  (by decide +kernel : ∀ t : Fin grid0.N, win0_3.index t (1 : Fin 2) = 0)

theorem idx_fix4_0 : ∀ t : Fin cfg0.N, win0_4.index t (0 : Fin 2) = 0 :=
  (by decide +kernel : ∀ t : Fin grid0.N, win0_4.index t (0 : Fin 2) = 0)
theorem idx_fix4_1 : ∀ t : Fin cfg0.N, win0_4.index t (1 : Fin 2) = 0 :=
  (by decide +kernel : ∀ t : Fin grid0.N, win0_4.index t (1 : Fin 2) = 0)

theorem idx_fix5_0 : ∀ t : Fin cfg0.N, win0_5.index t (0 : Fin 2) = 0 :=
  (by decide +kernel : ∀ t : Fin grid0.N, win0_5.index t (0 : Fin 2) = 0)
theorem idx_fix5_1 : ∀ t : Fin cfg0.N, win0_5.index t (1 : Fin 2) = 0 :=
  (by decide +kernel : ∀ t : Fin grid0.N, win0_5.index t (1 : Fin 2) = 0)

theorem idx_fix6_0 : ∀ t : Fin cfg0.N, win0_6.index t (0 : Fin 2) = 0 :=
  (by decide +kernel : ∀ t : Fin grid0.N, win0_6.index t (0 : Fin 2) = 0)
theorem idx_fix6_1 : ∀ t : Fin cfg0.N, win0_6.index t (1 : Fin 2) = 0 :=
  (by decide +kernel : ∀ t : Fin grid0.N, win0_6.index t (1 : Fin 2) = 0)

theorem idx_fix7_0 : ∀ t : Fin cfg0.N, win0_7.index t (0 : Fin 2) = 0 :=
  (by decide +kernel : ∀ t : Fin grid0.N, win0_7.index t (0 : Fin 2) = 0)
theorem idx_fix7_1 : ∀ t : Fin cfg0.N, win0_7.index t (1 : Fin 2) = 0 :=
  (by decide +kernel : ∀ t : Fin grid0.N, win0_7.index t (1 : Fin 2) = 0)

theorem idx_fix8_0 : ∀ t : Fin cfg0.N, win0_8.index t (0 : Fin 2) = 0 :=
  (by decide +kernel : ∀ t : Fin grid0.N, win0_8.index t (0 : Fin 2) = 0)
theorem idx_fix8_1 : ∀ t : Fin cfg0.N, win0_8.index t (1 : Fin 2) = 0 :=
  (by decide +kernel : ∀ t : Fin grid0.N, win0_8.index t (1 : Fin 2) = 0)

/-- The aggregated array as a function of the arguments: the reference's stage for it, never opened. -/
abbrev agg (c : Dev nD) : S50000x64.Idx → EReal :=
  Cert.ReferenceIdeal.Read.val_main_v25 (F := Ideal) (m ((c : Thread nD τ).loc main_arg0))
    (m ((c : Thread nD τ).loc main_arg1)) (m ((c : Thread nD τ).loc main_arg2))

/-! ## The three row windows -/

/-- Entry `(r, k)` of window 0's block at point `t`, read off any array `G` of 50000 rows, is `G` at `(5000 t + r, k)`. -/
theorem read_rows0 (G : S50000x64.Idx → EReal) (t : Fin cfg0.N) (r : Fin 5000) (k : Fin 64) (p : Fin 50000)
    (hp : p.val = t.val * 5000 + r.val) :
    ((cfg0.win 0).blk t).view.read (Elt Ideal) G (ix2 r k) = G (ix2 p k) := by
  have e0 : win0_0.index t (0 : Fin 2) = t.val := idx_rows0_0 t
  have e1 : win0_0.index t (1 : Fin 2) = 0 := idx_rows0_1 t
  rw [View.read_apply]
  show G (((cfg0.win 0).blk t).view.emb (ix2 r k)) = G (ix2 p k)
  refine congrArg G ?_
  funext a
  apply Fin.ext
  match a with
  | ⟨0, _⟩ => show win0_0.index t (0 : Fin 2) * 5000 + 1 * r.val = p.val; rw [e0, hp]; omega
  | ⟨1, _⟩ => show win0_0.index t (1 : Fin 2) * 64 + 1 * k.val = k.val; rw [e1]; omega

/-- Window 0's array at region entry is the aggregated array. -/
theorem V0 (c : Dev nD) : V m c (Pipeline.arrRef spec0 0) = agg m c := Cert.Mlp.Host.V_agg m c

theorem iblk0_eq (c : Dev nD) (t : Fin cfg0.N) :
    iblk m c 0 t = ((cfg0.win 0).blk t).view.read (Elt Ideal) (agg m c) := by
  unfold iblk
  exact congrArg (((cfg0.win 0).blk t).view.read (Elt Ideal)) (V0 m c)

/-- Entry `(r, k)` of window 0's block at point `t` is entry `(5000 t + r, k)` of the aggregated array. -/
theorem blk0_apply (c : Dev nD) (t : Fin cfg0.N) (r : Fin 5000) (k : Fin 64) (p : Fin 50000)
    (hp : p.val = t.val * 5000 + r.val) :
    (iblk m c 0 t : Vec Ideal S5000x64 .f32) (ix2 r k) = (agg m c) (ix2 p k) := by
  rw [iblk0_eq]
  exact read_rows0 _ t r k p hp

/-- Entry `(r, k)` of window 1's block at point `t`, read off any array `G` of 50000 rows, is `G` at `(5000 t + r, k)`. -/
theorem read_rows1 (G : S50000x64.Idx → EReal) (t : Fin cfg0.N) (r : Fin 5000) (k : Fin 64) (p : Fin 50000)
    (hp : p.val = t.val * 5000 + r.val) :
    ((cfg0.win 1).blk t).view.read (Elt Ideal) G (ix2 r k) = G (ix2 p k) := by
  have e0 : win0_1.index t (0 : Fin 2) = t.val := idx_rows1_0 t
  have e1 : win0_1.index t (1 : Fin 2) = 0 := idx_rows1_1 t
  rw [View.read_apply]
  show G (((cfg0.win 1).blk t).view.emb (ix2 r k)) = G (ix2 p k)
  refine congrArg G ?_
  funext a
  apply Fin.ext
  match a with
  | ⟨0, _⟩ => show win0_1.index t (0 : Fin 2) * 5000 + 1 * r.val = p.val; rw [e0, hp]; omega
  | ⟨1, _⟩ => show win0_1.index t (1 : Fin 2) * 64 + 1 * k.val = k.val; rw [e1]; omega

/-- Window 1's array at region entry is the embedding array as launched. -/
theorem V1 (c : Dev nD) : V m c (Pipeline.arrRef spec0 1) = m ((c : Thread nD τ).loc main_arg3) := V_main_arg3 m c

theorem iblk1_eq (c : Dev nD) (t : Fin cfg0.N) :
    iblk m c 1 t = ((cfg0.win 1).blk t).view.read (Elt Ideal) (m ((c : Thread nD τ).loc main_arg3)) := by
  unfold iblk
  exact congrArg (((cfg0.win 1).blk t).view.read (Elt Ideal)) (V1 m c)

/-- Entry `(r, k)` of window 1's block at point `t` is entry `(5000 t + r, k)` of the embedding array. -/
theorem blk1_apply (c : Dev nD) (t : Fin cfg0.N) (r : Fin 5000) (k : Fin 64) (p : Fin 50000)
    (hp : p.val = t.val * 5000 + r.val) :
    (iblk m c 1 t : Vec Ideal S5000x64 .f32) (ix2 r k) = (m ((c : Thread nD τ).loc main_arg3)) (ix2 p k) := by
  rw [iblk1_eq]
  exact read_rows1 _ t r k p hp

/-- Entry `(r, k)` of window 2's block at point `t`, read off any array `G` of 50000 rows, is `G` at `(5000 t + r, k)`. -/
theorem read_rows2 (G : S50000x64.Idx → EReal) (t : Fin cfg0.N) (r : Fin 5000) (k : Fin 64) (p : Fin 50000)
    (hp : p.val = t.val * 5000 + r.val) :
    ((cfg0.win 2).blk t).view.read (Elt Ideal) G (ix2 r k) = G (ix2 p k) := by
  have e0 : win0_2.index t (0 : Fin 2) = t.val := idx_rows2_0 t
  have e1 : win0_2.index t (1 : Fin 2) = 0 := idx_rows2_1 t
  rw [View.read_apply]
  show G (((cfg0.win 2).blk t).view.emb (ix2 r k)) = G (ix2 p k)
  refine congrArg G ?_
  funext a
  apply Fin.ext
  match a with
  | ⟨0, _⟩ => show win0_2.index t (0 : Fin 2) * 5000 + 1 * r.val = p.val; rw [e0, hp]; omega
  | ⟨1, _⟩ => show win0_2.index t (1 : Fin 2) * 64 + 1 * k.val = k.val; rw [e1]; omega

/-- Window 2's array at region entry is the node array as launched. -/
theorem V2 (c : Dev nD) : V m c (Pipeline.arrRef spec0 2) = m ((c : Thread nD τ).loc main_arg0) := V_main_arg0 m c

theorem iblk2_eq (c : Dev nD) (t : Fin cfg0.N) :
    iblk m c 2 t = ((cfg0.win 2).blk t).view.read (Elt Ideal) (m ((c : Thread nD τ).loc main_arg0)) := by
  unfold iblk
  exact congrArg (((cfg0.win 2).blk t).view.read (Elt Ideal)) (V2 m c)

/-- Entry `(r, k)` of window 2's block at point `t` is entry `(5000 t + r, k)` of the node array. -/
theorem blk2_apply (c : Dev nD) (t : Fin cfg0.N) (r : Fin 5000) (k : Fin 64) (p : Fin 50000)
    (hp : p.val = t.val * 5000 + r.val) :
    (iblk m c 2 t : Vec Ideal S5000x64 .f32) (ix2 r k) = (m ((c : Thread nD τ).loc main_arg0)) (ix2 p k) := by
  rw [iblk2_eq]
  exact read_rows2 _ t r k p hp

/-! ## The four weight windows -/

/-- Entry `(k, q)` of window 3's block, read off any 64 × 64 array `G`, is `G` at `(k, q)`: the window holds its
    whole array at every point. -/
theorem read_w3 (G : S64x64.Idx → EReal) (t : Fin cfg0.N) (k q : Fin 64) :
    ((cfg0.win 3).blk t).view.read (Elt Ideal) G (ix2 k q) = G (ix2 k q) := by
  have e0 : win0_3.index t (0 : Fin 2) = 0 := idx_fix3_0 t
  have e1 : win0_3.index t (1 : Fin 2) = 0 := idx_fix3_1 t
  rw [View.read_apply]
  show G (((cfg0.win 3).blk t).view.emb (ix2 k q)) = G (ix2 k q)
  refine congrArg G ?_
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- Window 3's array at region entry: the upper half of the weight matrix as launched. -/
theorem V3 (c : Dev nD) : V m c (Pipeline.arrRef spec0 3)
    = extractStridedSlice S64x64 ![0, 0] (m ((c : Thread nD τ).loc main_arg4)) slices_S128x64_S64x64_0_0 := Cert.Mlp.Host.V_wm1 m c

theorem iblk3_eq (c : Dev nD) (t : Fin cfg0.N) :
    iblk m c 3 t = ((cfg0.win 3).blk t).view.read (Elt Ideal)
      (extractStridedSlice S64x64 ![0, 0] (m ((c : Thread nD τ).loc main_arg4)) slices_S128x64_S64x64_0_0) := by
  unfold iblk
  exact congrArg (((cfg0.win 3).blk t).view.read (Elt Ideal)) (V3 m c)

/-- Entry `(k, q)` of window 3's block is entry `(0 + k, q)` of the weight matrix: its upper half. -/
theorem blk3_apply (c : Dev nD) (t : Fin cfg0.N) (k q : Fin 64) :
    (iblk m c 3 t : Vec Ideal S64x64 .f32) (ix2 k q) = Cert.Mlp.upper (m ((c : Thread nD τ).loc main_arg4)) k q := by
  rw [iblk3_eq, read_w3]
  exact slice2_axis0_apply 0 (m ((c : Thread nD τ).loc main_arg4)) slices_S128x64_S64x64_0_0 k q _ (by first | rfl | exact (Nat.zero_add _).symm)

/-- Entry `(k, q)` of window 4's block, read off any 64 × 64 array `G`, is `G` at `(k, q)`: the window holds its
    whole array at every point. -/
theorem read_w4 (G : S64x64.Idx → EReal) (t : Fin cfg0.N) (k q : Fin 64) :
    ((cfg0.win 4).blk t).view.read (Elt Ideal) G (ix2 k q) = G (ix2 k q) := by
  have e0 : win0_4.index t (0 : Fin 2) = 0 := idx_fix4_0 t
  have e1 : win0_4.index t (1 : Fin 2) = 0 := idx_fix4_1 t
  rw [View.read_apply]
  show G (((cfg0.win 4).blk t).view.emb (ix2 k q)) = G (ix2 k q)
  refine congrArg G ?_
  funext a
  apply Fin.ext
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-- Window 4's array at region entry: the lower half of the weight matrix as launched. -/
theorem V4 (c : Dev nD) : V m c (Pipeline.arrRef spec0 4)
    = extractStridedSlice S64x64 ![64, 0] (m ((c : Thread nD τ).loc main_arg4)) slices_S128x64_S64x64_64_0 := Cert.Mlp.Host.V_wm2 m c

theorem iblk4_eq (c : Dev nD) (t : Fin cfg0.N) :
    iblk m c 4 t = ((cfg0.win 4).blk t).view.read (Elt Ideal)
      (extractStridedSlice S64x64 ![64, 0] (m ((c : Thread nD τ).loc main_arg4)) slices_S128x64_S64x64_64_0) := by
  unfold iblk
  exact congrArg (((cfg0.win 4).blk t).view.read (Elt Ideal)) (V4 m c)

/-- Entry `(k, q)` of window 4's block is entry `(64 + k, q)` of the weight matrix: its lower half. -/
theorem blk4_apply (c : Dev nD) (t : Fin cfg0.N) (k q : Fin 64) :
    (iblk m c 4 t : Vec Ideal S64x64 .f32) (ix2 k q) = Cert.Mlp.lower (m ((c : Thread nD τ).loc main_arg4)) k q := by
  rw [iblk4_eq, read_w4]
  exact slice2_axis0_apply 64 (m ((c : Thread nD τ).loc main_arg4)) slices_S128x64_S64x64_64_0 k q _ (by first | rfl | exact (Nat.zero_add _).symm)

/-- Entry `(k, q)` of window 6's block, read off any 64 × 64 array `G`, is `G` at `(k, q)`: the window holds its
    whole array at every point. -/
theorem read_w6 (G : S64x64.Idx → EReal) (t : Fin cfg0.N) (k q : Fin 64) :
    ((cfg0.win 6).blk t).view.read (Elt Ideal) G (ix2 k q) = G (ix2 k q) := by
  have e0 : win0_6.index t (0 : Fin 2) = 0 := idx_fix6_0 t
  have e1 : win0_6.index t (1 : Fin 2) = 0 := idx_fix6_1 t
  rw [View.read_apply]
  show G (((cfg0.win 6).blk t).view.emb (ix2 k q)) = G (ix2 k q)
  refine congrArg G ?_
  funext a
  apply Fin.ext
  match a with
  | ⟨0, _⟩ => show win0_6.index t (0 : Fin 2) * 64 + 1 * k.val = k.val; rw [e0]; omega
  | ⟨1, _⟩ => show win0_6.index t (1 : Fin 2) * 64 + 1 * q.val = q.val; rw [e1]; omega

/-- Window 6's array at region entry: the upper half of the weight matrix as launched. -/
theorem V6 (c : Dev nD) : V m c (Pipeline.arrRef spec0 6)
    = extractStridedSlice S64x64 ![0, 0] (m ((c : Thread nD τ).loc main_arg6)) slices_S128x64_S64x64_0_0 := Cert.Mlp.Host.V_wu1 m c

theorem iblk6_eq (c : Dev nD) (t : Fin cfg0.N) :
    iblk m c 6 t = ((cfg0.win 6).blk t).view.read (Elt Ideal)
      (extractStridedSlice S64x64 ![0, 0] (m ((c : Thread nD τ).loc main_arg6)) slices_S128x64_S64x64_0_0) := by
  unfold iblk
  exact congrArg (((cfg0.win 6).blk t).view.read (Elt Ideal)) (V6 m c)

/-- Entry `(k, q)` of window 6's block is entry `(0 + k, q)` of the weight matrix: its upper half. -/
theorem blk6_apply (c : Dev nD) (t : Fin cfg0.N) (k q : Fin 64) :
    (iblk m c 6 t : Vec Ideal S64x64 .f32) (ix2 k q) = Cert.Mlp.upper (m ((c : Thread nD τ).loc main_arg6)) k q := by
  rw [iblk6_eq, read_w6]
  exact slice2_axis0_apply 0 (m ((c : Thread nD τ).loc main_arg6)) slices_S128x64_S64x64_0_0 k q _ (by first | rfl | exact (Nat.zero_add _).symm)

/-- Entry `(k, q)` of window 7's block, read off any 64 × 64 array `G`, is `G` at `(k, q)`: the window holds its
    whole array at every point. -/
theorem read_w7 (G : S64x64.Idx → EReal) (t : Fin cfg0.N) (k q : Fin 64) :
    ((cfg0.win 7).blk t).view.read (Elt Ideal) G (ix2 k q) = G (ix2 k q) := by
  have e0 : win0_7.index t (0 : Fin 2) = 0 := idx_fix7_0 t
  have e1 : win0_7.index t (1 : Fin 2) = 0 := idx_fix7_1 t
  rw [View.read_apply]
  show G (((cfg0.win 7).blk t).view.emb (ix2 k q)) = G (ix2 k q)
  refine congrArg G ?_
  funext a
  apply Fin.ext
  match a with
  | ⟨0, _⟩ => show win0_7.index t (0 : Fin 2) * 64 + 1 * k.val = k.val; rw [e0]; omega
  | ⟨1, _⟩ => show win0_7.index t (1 : Fin 2) * 64 + 1 * q.val = q.val; rw [e1]; omega

/-- Window 7's array at region entry: the lower half of the weight matrix as launched. -/
theorem V7 (c : Dev nD) : V m c (Pipeline.arrRef spec0 7)
    = extractStridedSlice S64x64 ![64, 0] (m ((c : Thread nD τ).loc main_arg6)) slices_S128x64_S64x64_64_0 := Cert.Mlp.Host.V_wu2 m c

theorem iblk7_eq (c : Dev nD) (t : Fin cfg0.N) :
    iblk m c 7 t = ((cfg0.win 7).blk t).view.read (Elt Ideal)
      (extractStridedSlice S64x64 ![64, 0] (m ((c : Thread nD τ).loc main_arg6)) slices_S128x64_S64x64_64_0) := by
  unfold iblk
  exact congrArg (((cfg0.win 7).blk t).view.read (Elt Ideal)) (V7 m c)

/-- Entry `(k, q)` of window 7's block is entry `(64 + k, q)` of the weight matrix: its lower half. -/
theorem blk7_apply (c : Dev nD) (t : Fin cfg0.N) (k q : Fin 64) :
    (iblk m c 7 t : Vec Ideal S64x64 .f32) (ix2 k q) = Cert.Mlp.lower (m ((c : Thread nD τ).loc main_arg6)) k q := by
  rw [iblk7_eq, read_w7]
  exact slice2_axis0_apply 64 (m ((c : Thread nD τ).loc main_arg6)) slices_S128x64_S64x64_64_0 k q _ (by first | rfl | exact (Nat.zero_add _).symm)

/-! ## The two bias windows -/

/-- Entry `(0, q)` of window 5's block, read off any one-row array `G`, is `G` at `(0, q)`. -/
theorem read_b5 (G : S1x64.Idx → EReal) (t : Fin cfg0.N) (q : Fin 64) :
    ((cfg0.win 5).blk t).view.read (Elt Ideal) G (ix2 (0 : Fin 1) q) = G (ix2 (0 : Fin 1) q) := by
  have e0 : win0_5.index t (0 : Fin 2) = 0 := idx_fix5_0 t
  have e1 : win0_5.index t (1 : Fin 2) = 0 := idx_fix5_1 t
  rw [View.read_apply]
  show G (((cfg0.win 5).blk t).view.emb (ix2 (0 : Fin 1) q)) = G (ix2 (0 : Fin 1) q)
  refine congrArg G ?_
  funext a
  apply Fin.ext
  match a with
  | ⟨0, _⟩ => show win0_5.index t (0 : Fin 2) * 1 + 1 * 0 = 0; rw [e0]
  | ⟨1, _⟩ => show win0_5.index t (1 : Fin 2) * 64 + 1 * q.val = q.val; rw [e1]; omega

/-- Window 5's array at region entry: the bias vector as launched, laid out as one row. -/
theorem V5 (c : Dev nD) : V m c (Pipeline.arrRef spec0 5)
    = shapeCast S1x64 (m ((c : Thread nD τ).loc main_arg5)) shapeCasts_S64_S1x64 := Cert.Mlp.Host.V_bm m c

theorem iblk5_eq (c : Dev nD) (t : Fin cfg0.N) :
    iblk m c 5 t = ((cfg0.win 5).blk t).view.read (Elt Ideal)
      (shapeCast S1x64 (m ((c : Thread nD τ).loc main_arg5)) shapeCasts_S64_S1x64) := by
  unfold iblk
  exact congrArg (((cfg0.win 5).blk t).view.read (Elt Ideal)) (V5 m c)

/-- Entry `(0, q)` of window 5's block is entry `q` of the bias vector. -/
theorem blk5_apply (c : Dev nD) (t : Fin cfg0.N) (q : Fin 64) :
    (iblk m c 5 t : Vec Ideal S1x64 .f32) (ix2 (0 : Fin 1) q) = (m ((c : Thread nD τ).loc main_arg5)) (ix1 q) := by
  rw [iblk5_eq, read_b5]
  exact shapeCast_a_1a_apply (m ((c : Thread nD τ).loc main_arg5)) shapeCasts_S64_S1x64 0 q

/-- Entry `(0, q)` of window 8's block, read off any one-row array `G`, is `G` at `(0, q)`. -/
theorem read_b8 (G : S1x64.Idx → EReal) (t : Fin cfg0.N) (q : Fin 64) :
    ((cfg0.win 8).blk t).view.read (Elt Ideal) G (ix2 (0 : Fin 1) q) = G (ix2 (0 : Fin 1) q) := by
  have e0 : win0_8.index t (0 : Fin 2) = 0 := idx_fix8_0 t
  have e1 : win0_8.index t (1 : Fin 2) = 0 := idx_fix8_1 t
  rw [View.read_apply]
  show G (((cfg0.win 8).blk t).view.emb (ix2 (0 : Fin 1) q)) = G (ix2 (0 : Fin 1) q)
  refine congrArg G ?_
  funext a
  apply Fin.ext
  match a with
  | ⟨0, _⟩ => show win0_8.index t (0 : Fin 2) * 1 + 1 * 0 = 0; rw [e0]
  | ⟨1, _⟩ => show win0_8.index t (1 : Fin 2) * 64 + 1 * q.val = q.val; rw [e1]; omega

/-- Window 8's array at region entry: the bias vector as launched, laid out as one row. -/
theorem V8 (c : Dev nD) : V m c (Pipeline.arrRef spec0 8)
    = shapeCast S1x64 (m ((c : Thread nD τ).loc main_arg7)) shapeCasts_S64_S1x64 := Cert.Mlp.Host.V_bu m c

theorem iblk8_eq (c : Dev nD) (t : Fin cfg0.N) :
    iblk m c 8 t = ((cfg0.win 8).blk t).view.read (Elt Ideal)
      (shapeCast S1x64 (m ((c : Thread nD τ).loc main_arg7)) shapeCasts_S64_S1x64) := by
  unfold iblk
  exact congrArg (((cfg0.win 8).blk t).view.read (Elt Ideal)) (V8 m c)

/-- Entry `(0, q)` of window 8's block is entry `q` of the bias vector. -/
theorem blk8_apply (c : Dev nD) (t : Fin cfg0.N) (q : Fin 64) :
    (iblk m c 8 t : Vec Ideal S1x64 .f32) (ix2 (0 : Fin 1) q) = (m ((c : Thread nD τ).loc main_arg7)) (ix1 q) := by
  rw [iblk8_eq, read_b8]
  exact shapeCast_a_1a_apply (m ((c : Thread nD τ).loc main_arg7)) shapeCasts_S64_S1x64 0 q

end Cert.Mlp.Blocks

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.KernelPayload.lean ====
/-
  What the kernel's body computes on one block of 5000 rows, entry by entry, on the extended reals.

  The body rounds its operands to a narrower format (the identity on the extended reals), multiplies the block of
  aggregated rows by the upper half of the message weights and the block of embedding rows by the lower half, adds the
  two products and the bias row, and floors the sum at zero; that message block goes, with the block of the nodes' own
  rows, through the update weights in the same way. A matrix product of a [5000, 64] block with a [64, 64] matrix into
  zeros is, at row `r` and column `q`, the sum over `k` of `lhs (r, k) · rhs (k, q)`; so each entry of the stored block is
  `Cert.Mlp.rowOut` of row `r` of the three input blocks.
-/
import proofs.«181001_j67405216744187_1_alg».proof.Proof.Gen.KernelIdeal.Skeleton
import proofs.«181001_j67405216744187_1_alg».proof.Proof.Spec
import proofs.«181001_j67405216744187_1_alg».proof.Proof.LibMatmul
import Idealize.ShloMosaic.Lib.Pipeline.Value
import Idealize.ShloMosaic.Lib.ValueIdx
import Idealize.ShloMosaic.Lib.ValueLayout

noncomputable section

namespace Cert.Mlp.Kernel

open Cert.KernelIdeal Cert.KernelIdeal.Gen Idealize.ShloMosaic Idealize.ShloMosaic.ValueIdx

/-- The block product at an entry: the dimension numbers contract the left operand's columns with the right operand's
    rows, so entry `(r, q)` is the sum over `k` of `lhs (r, k) · rhs (k, q)`. -/
theorem mm_apply {φ₁ φ₂ : FTy} (lhs : FVec Ideal S5000x64 φ₁) (rhs : FVec Ideal S64x64 φ₂) (r : Fin 5000) (q : Fin 64) :
    FloatOps.matmul dot_S5000x64_S64x64_S5000x64_1_0_0_1_n_n none lhs rhs (constant S5000x64 .f32 0x00000000#32) (ix2 r q)
      = ∑ k : Fin 64, lhs (ix2 r k) * rhs (ix2 k q) :=
  Cert.LibMatmul.matmul_zero_ix2 dot_S5000x64_S64x64_S5000x64_1_0_0_1_n_n none rfl rfl
    (fun j c => by
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl)
    (fun j c => dot_S5000x64_S64x64_S5000x64_1_0_0_1_n_n.lhsIdx_val_of_single rfl j c)
    (fun j c => dot_S5000x64_S64x64_S5000x64_1_0_0_1_n_n.rhsIdx_val_of_single rfl j c)
    (fun j c => by
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl)
    lhs rhs (ix2 r q)

/-- One dense layer of the body on a block: two block products added, the bias row added to every row, the floor. -/
theorem dense_block {φ₁ φ₂ : FTy} (a b : FVec Ideal S5000x64 φ₁) (W1 W2 : FVec Ideal S64x64 φ₂) (c : FVec Ideal S1x64 .f32)
    (z : EReal) (r : Fin 5000) (q : Fin 64) :
    maximumf (addf (addf
        (FloatOps.matmul dot_S5000x64_S64x64_S5000x64_1_0_0_1_n_n none a W1 (constant S5000x64 .f32 0x00000000#32))
        (FloatOps.matmul dot_S5000x64_S64x64_S5000x64_1_0_0_1_n_n none b W2 (constant S5000x64 .f32 0x00000000#32)))
        (broadcastTo S5000x64 c broadcasts_S1x64_S5000x64)) (broadcast S5000x64 z) (ix2 r q)
      = Cert.Mlp.dense (fun k => a (ix2 r k)) (fun k => b (ix2 r k)) (fun k q => W1 (ix2 k q)) (fun k q => W2 (ix2 k q))
          (fun q => c (ix2 (0 : Fin 1) q)) z q := by
  show max ((FloatOps.matmul dot_S5000x64_S64x64_S5000x64_1_0_0_1_n_n none a W1 (constant S5000x64 .f32 0x00000000#32) (ix2 r q)
      + FloatOps.matmul dot_S5000x64_S64x64_S5000x64_1_0_0_1_n_n none b W2 (constant S5000x64 .f32 0x00000000#32) (ix2 r q))
      + broadcastTo S5000x64 c broadcasts_S1x64_S5000x64 (ix2 r q)) z = _
  rw [mm_apply, mm_apply, broadcastTo_1b_ab_apply]
  rfl

/-- The stored block at an entry: `rowOut` of row `r` of the three row blocks, the four weight blocks and the two bias rows. -/
theorem pay_apply (v0 v3 v5 : Vec Ideal S5000x64 .f32) (v7 v10 v13 v16 : Vec Ideal S64x64 .f32) (v19 v21 : Vec Ideal S1x64 .f32)
    (r : Fin 5000) (q : Fin 64) :
    k0_pay1 (k0_pay2 v0 v3 v5 v7 v10 v13 v16 v19 v21) (ix2 r q)
      = Cert.Mlp.rowOut (fun k => v0 (ix2 r k)) (fun k => v3 (ix2 r k)) (fun k => v5 (ix2 r k))
          (fun k q => v7 (ix2 k q)) (fun k q => v10 (ix2 k q)) (fun q => v19 (ix2 (0 : Fin 1) q))
          (fun k q => v13 (ix2 k q)) (fun k q => v16 (ix2 k q)) (fun q => v21 (ix2 (0 : Fin 1) q))
          (Ideal.ofBits .f32 0x00000000#32) q := by
  unfold k0_pay1 k0_pay2 Cert.Mlp.rowOut
  simp only [shapeCast_self]
  refine (dense_block _ _ _ _ _ _ r q).trans ?_
  refine congrArg (fun f => Cert.Mlp.dense _ f _ _ _ _ q) (funext fun k => ?_)
  exact dense_block _ _ _ _ _ _ r k

end Cert.Mlp.Kernel

end
-- ==== Proof.KernelValue.lean ====
/-
  From the blocks the grid points write back to the whole result array.

  At grid point `t` the body stores, into the output window's block, `Cert.Mlp.rowOut` of row `r` of the three input
  blocks for every row `r` of the block; the input blocks are rows `5000 t + r` of the aggregated, embedding and node
  arrays, so the block written back is block `t` (rows `5000 t` to `5000 t + 4999`) of the one array
  `Cert.Mlp.out` of the arguments. The ten blocks tile the 50000 rows — row `i` lies in block `i / 5000` — so after the
  run the result array is `Cert.Mlp.out` of the arguments everywhere.
-/
import proofs.«181001_j67405216744187_1_alg».proof.Proof.Gen.KernelIdeal.Value
import proofs.«181001_j67405216744187_1_alg».proof.Proof.Blocks
import proofs.«181001_j67405216744187_1_alg».proof.Proof.KernelPayload

noncomputable section

namespace Cert.Mlp.Value

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arguments: the two stacked dense layers on every row. -/
abbrev result (c : Dev nD) : Buf (Elt Ideal) ((c : Thread nD τ).loc main_v32) :=
  Cert.Mlp.out (Cert.Mlp.Blocks.agg m c) (m ((c : Thread nD τ).loc main_arg3)) (m ((c : Thread nD τ).loc main_arg0))
    (m ((c : Thread nD τ).loc main_arg4)) (m ((c : Thread nD τ).loc main_arg5))
    (m ((c : Thread nD τ).loc main_arg6)) (m ((c : Thread nD τ).loc main_arg7))

/-- What the body computes at row `r`, column `q` of the block at point `t` is the result at row `5000 t + r`. -/
theorem point (c : Dev nD) (t : Fin cfg0.N) (r : Fin 5000) (q : Fin 64) (p : Fin 50000)
    (hp : p.val = t.val * 5000 + r.val) :
    k0_pay1 (k0_pay2 (iblk m c 0 t) (iblk m c 1 t) (iblk m c 2 t) (iblk m c 3 t) (iblk m c 4 t) (iblk m c 6 t) (iblk m c 7 t) (iblk m c 5 t) (iblk m c 8 t)) (ix2 r q) = result m c (ix2 p q) := by
  refine (Cert.Mlp.Kernel.pay_apply (iblk m c 0 t) (iblk m c 1 t) (iblk m c 2 t) (iblk m c 3 t) (iblk m c 4 t) (iblk m c 6 t) (iblk m c 7 t) (iblk m c 5 t) (iblk m c 8 t) r q).trans ?_
  show _ = Cert.Mlp.out _ _ _ _ _ _ _ (ix2 p q)
  rw [Cert.Mlp.out_ix2]
  have h0 : (fun k => (iblk m c 0 t : Vec Ideal S5000x64 .f32) (ix2 r k)) = fun k => Cert.Mlp.Blocks.agg m c (ix2 p k) :=
    funext fun k => Cert.Mlp.Blocks.blk0_apply m c t r k p hp
  have h1 : (fun k => (iblk m c 1 t : Vec Ideal S5000x64 .f32) (ix2 r k)) = fun k => (m ((c : Thread nD τ).loc main_arg3)) (ix2 p k) :=
    funext fun k => Cert.Mlp.Blocks.blk1_apply m c t r k p hp
  have h2 : (fun k => (iblk m c 2 t : Vec Ideal S5000x64 .f32) (ix2 r k)) = fun k => (m ((c : Thread nD τ).loc main_arg0)) (ix2 p k) :=
    funext fun k => Cert.Mlp.Blocks.blk2_apply m c t r k p hp
  have h3 : (fun k q => (iblk m c 3 t : Vec Ideal S64x64 .f32) (ix2 k q)) = Cert.Mlp.upper (m ((c : Thread nD τ).loc main_arg4)) :=
    funext fun k => funext fun q => Cert.Mlp.Blocks.blk3_apply m c t k q
  have h4 : (fun k q => (iblk m c 4 t : Vec Ideal S64x64 .f32) (ix2 k q)) = Cert.Mlp.lower (m ((c : Thread nD τ).loc main_arg4)) :=
    funext fun k => funext fun q => Cert.Mlp.Blocks.blk4_apply m c t k q
  have h5 : (fun q => (iblk m c 5 t : Vec Ideal S1x64 .f32) (ix2 (0 : Fin 1) q)) = fun q => (m ((c : Thread nD τ).loc main_arg5)) (ix1 q) :=
    funext fun q => Cert.Mlp.Blocks.blk5_apply m c t q
  have h6 : (fun k q => (iblk m c 6 t : Vec Ideal S64x64 .f32) (ix2 k q)) = Cert.Mlp.upper (m ((c : Thread nD τ).loc main_arg6)) :=
    funext fun k => funext fun q => Cert.Mlp.Blocks.blk6_apply m c t k q
  have h7 : (fun k q => (iblk m c 7 t : Vec Ideal S64x64 .f32) (ix2 k q)) = Cert.Mlp.lower (m ((c : Thread nD τ).loc main_arg6)) :=
    funext fun k => funext fun q => Cert.Mlp.Blocks.blk7_apply m c t k q
  have h8 : (fun q => (iblk m c 8 t : Vec Ideal S1x64 .f32) (ix2 (0 : Fin 1) q)) = fun q => (m ((c : Thread nD τ).loc main_arg7)) (ix1 q) :=
    funext fun q => Cert.Mlp.Blocks.blk8_apply m c t q
  rw [h0, h1, h2, h3, h4, h5, h6, h7, h8]

/-- What point `t` writes back is block `t` of the result array. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero hz]
  simp only [View.ld_unit_zero (S := S5000x64) hz, View.ld_unit_zero (S := S64x64) hz, View.ld_unit_zero (S := S1x64) hz]
  have e0 : win0_9.index t (0 : Fin 2) = t.val := Cert.Mlp.Blocks.idx_rows9_0 t
  have e1 : win0_9.index t (1 : Fin 2) = 0 := Cert.Mlp.Blocks.idx_rows9_1 t
  have ht : t.val < 10 := Nat.lt_of_lt_of_eq t.isLt N_0
  funext j
  have hj0 : (j 0).val < 5000 := (j 0).isLt
  have hj1 : (j 1).val < 64 := (j 1).isLt
  show k0_pay1 (k0_pay2 (iblk m c 0 t) (iblk m c 1 t) (iblk m c 2 t) (iblk m c 3 t) (iblk m c 4 t) (iblk m c 6 t) (iblk m c 7 t) (iblk m c 5 t) (iblk m c 8 t)) j = result m c (((cfg0.win 9).blk t).view.emb j)
  have hj : j = ix2 (⟨(j 0).val, hj0⟩ : Fin 5000) (⟨(j 1).val, hj1⟩ : Fin 64) :=
    funext fun a => match a with | ⟨0, _⟩ => rfl | ⟨1, _⟩ => rfl
  refine (congrArg (k0_pay1 (k0_pay2 (iblk m c 0 t) (iblk m c 1 t) (iblk m c 2 t) (iblk m c 3 t) (iblk m c 4 t) (iblk m c 6 t) (iblk m c 7 t) (iblk m c 5 t) (iblk m c 8 t))) hj).trans ?_
  refine (point m c t ⟨(j 0).val, hj0⟩ ⟨(j 1).val, hj1⟩ ⟨t.val * 5000 + (j 0).val, by omega⟩ rfl).trans ?_
  refine congrArg (result m c) ?_
  funext a
  apply Fin.ext
  match a with
  | ⟨0, _⟩ => show t.val * 5000 + (j 0).val = win0_9.index t (0 : Fin 2) * 5000 + 1 * (j 0).val; rw [e0]; omega
  | ⟨1, _⟩ => show (j 1).val = win0_9.index t (1 : Fin 2) * 64 + 1 * (j 1).val; rw [e1]; omega

/-- An index of the result array is in point `t`'s block iff each coordinate is in the block's range on its axis. -/
theorem mem_blk (t : Fin cfg0.N) (i : S50000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v32).slice (win0_9.rect t)).set ↔ _
  rw [View.set_slice_whole, Rect.mem_set_unit]
  exact Iff.rfl

/-- The ten blocks cover the result array: row `i` lies in the block of point `i / 5000`. -/
theorem cover (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  have hN : cfg0.N = 10 := N_0
  have ht : (i 0).val / 5000 < cfg0.N := by rw [hN]; omega
  refine ⟨⟨(i 0).val / 5000, ht⟩, flush0_9 _, ?_⟩
  rw [mem_blk]
  have e0 : win0_9.index ⟨(i 0).val / 5000, ht⟩ (0 : Fin 2) = (i 0).val / 5000 := Cert.Mlp.Blocks.idx_rows9_0 _
  have e1 : win0_9.index ⟨(i 0).val / 5000, ht⟩ (1 : Fin 2) = 0 := Cert.Mlp.Blocks.idx_rows9_1 _
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]; omega
  | ⟨1, _⟩ =>
    show win0_9.index ⟨(i 0).val / 5000, ht⟩ (1 : Fin 2) * 64 ≤ (i 1).val
      ∧ (i 1).val < win0_9.index ⟨(i 0).val / 5000, ht⟩ (1 : Fin 2) * 64 + 64
    rw [e1]; omega

/-- After the run the result array is the two stacked dense layers of the arguments, on every row. -/
theorem final (c : Dev nD) : (dats m 0 c).arrAt 9 cfg0.N = result m c :=
  (dats m 0 c).arrAt_eq_of_cover 9 (result m c) (fun t _ => flushed_eq m c t) (cover)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩)
    (Cert.KernelIdeal.Value.run_blocks m ρ)

end Cert.Mlp.Value

end
-- ==== Proof.RefValue.lean ====
/-
  The reference's two stacked dense layers, read entry by entry, are the specification's `out`.

  The reference joins two arrays of 50000 rows of 64 entries side by side into one array of 50000 rows of 128 entries
  and multiplies it by a 128 × 64 weight matrix. Entry `(p, q)` of that product is the sum over the 128 columns `k` of
  the joined row's entry `k` times the weight's entry `(k, q)`. A column below 64 of the joined row is the first array's
  entry at that column; a column `64 + k` is the second array's entry at column `k`. A sum over 128 indices is the sum over
  the first 64 plus the sum over the last 64, so the product's entry is the first row times the weight's upper 64 rows
  plus the second row times its lower 64 rows: the two-block form the specification writes down.

  Each layer then adds the bias row, the same for every row `p`, and takes the maximum with the value of the zero word.
  The first layer joins the aggregated array with the embedding array; the second joins the node array with the first
  layer's result. The aggregated array enters only as a given array: nothing here depends on how it is made.
-/
import proofs.«181001_j67405216744187_1_alg».proof.Proof.Gen.ReferenceIdeal.Read
import proofs.«181001_j67405216744187_1_alg».proof.Proof.Spec
import Idealize.ShloMosaic.Lib.Pipeline.Value
import Idealize.ShloMosaic.Lib.ValueIdx
import Idealize.ShloMosaic.Lib.ValueLayout

noncomputable section

namespace Cert.Mlp.Ref

open Cert.ReferenceIdeal Cert.ReferenceIdeal.Read Idealize.ShloMosaic Idealize.ShloMosaic.ValueIdx

/-- A column below 64 of the joined row is the first array's entry at that column. -/
theorem concat_left (h : Shape.Concatenates [S50000x64, S50000x64] S50000x128 1)
    (a b : S50000x64.Idx → EReal) (p : Fin 50000) (k : Fin 64) :
    concatenate S50000x128 1 [⟨S50000x64, a⟩, ⟨S50000x64, b⟩] h (ix2 p (⟨k.val, by omega⟩ : Fin 128)) = a (ix2 p k) :=
  concatenate_pair_apply_left 1 a b h _ rfl (ix2 p k) (fun c => match c with
    | ⟨0, _⟩ => rfl
    | ⟨1, _⟩ => rfl)

/-- Column `64 + k` of the joined row is the second array's entry at column `k`. -/
theorem concat_right (h : Shape.Concatenates [S50000x64, S50000x64] S50000x128 1)
    (a b : S50000x64.Idx → EReal) (p : Fin 50000) (k : Fin 64) :
    concatenate S50000x128 1 [⟨S50000x64, a⟩, ⟨S50000x64, b⟩] h (ix2 p (⟨64 + k.val, by omega⟩ : Fin 128)) = b (ix2 p k) :=
  concatenate_pair_apply_right 1 a b h _ rfl rfl (ix2 p k) (fun c hc => match c, hc with
    | ⟨0, _⟩, _ => rfl
    | ⟨1, _⟩, hc => absurd rfl hc) (by show k.val + 64 = 64 + k.val; omega)

/-- The joined row times the weight matrix: entry `(p, q)` of the product of the two arrays joined side by side with a
    128 × 64 matrix is the first array's row `p` times the matrix's upper half plus the second array's row `p` times its
    lower half, each a sum over 64 columns. -/
theorem joined_row_mul (h : Shape.Concatenates [S50000x64, S50000x64] S50000x128 1)
    (a b : S50000x64.Idx → EReal) (W : S128x64.Idx → EReal) (p : Fin 50000) (q : Fin 64) :
    ∑ k : Fin 128, concatenate S50000x128 1 [⟨S50000x64, a⟩, ⟨S50000x64, b⟩] h (ix2 p k) * W (ix2 k q)
      = ∑ k : Fin 64, a (ix2 p k) * Cert.Mlp.upper W k q + ∑ k : Fin 64, b (ix2 p k) * Cert.Mlp.lower W k q := by
  refine (Cert.Mlp.sum_halves _).trans ?_
  refine congrArg₂ (· + ·) (Finset.sum_congr rfl fun k _ => ?_) (Finset.sum_congr rfl fun k _ => ?_)
  · exact congrArg (· * W (ix2 (⟨k.val, by omega⟩ : Fin 128) q)) (concat_left h a b p k)
  · exact congrArg (· * W (ix2 (⟨64 + k.val, by omega⟩ : Fin 128) q)) (concat_right h a b p k)

/-- The same with the two factors read through any index functions that name entry `(p, k)` of the joined array and
    entry `(k, q)` of the matrix. -/
theorem joined_row_mul_at (h : Shape.Concatenates [S50000x64, S50000x64] S50000x128 1)
    (a b : S50000x64.Idx → EReal) (W : S128x64.Idx → EReal) (p : Fin 50000) (q : Fin 64)
    (li : Fin 128 → S50000x128.Idx) (ri : Fin 128 → S128x64.Idx)
    (hl : ∀ k, li k = ix2 p k) (hr : ∀ k, ri k = ix2 k q) :
    ∑ k : Fin 128, concatenate S50000x128 1 [⟨S50000x64, a⟩, ⟨S50000x64, b⟩] h (li k) * W (ri k)
      = ∑ k : Fin 64, a (ix2 p k) * Cert.Mlp.upper W k q + ∑ k : Fin 64, b (ix2 p k) * Cert.Mlp.lower W k q := by
  refine (Finset.sum_congr rfl fun k _ => ?_).trans (joined_row_mul h a b W p q)
  rw [hl k, hr k]

/-- The first product's left index at output entry `(p, q)` and column `k` is `(p, k)`. -/
theorem lidx27 (p : Fin 50000) (q : Fin 64) (k : Fin 128) : lidx_main_v27 (ix2 p q) k = ix2 p k :=
  funext fun a => match a with
    | ⟨0, _⟩ => rfl
    | ⟨1, _⟩ => rfl

/-- The first product's right index at output entry `(p, q)` and column `k` is `(k, q)`. -/
theorem ridx27 (p : Fin 50000) (q : Fin 64) (k : Fin 128) : ridx_main_v27 (ix2 p q) k = ix2 k q :=
  funext fun a => match a with
    | ⟨0, _⟩ => rfl
    | ⟨1, _⟩ => rfl

/-- The second product's left index at output entry `(p, q)` and column `k` is `(p, k)`. -/
theorem lidx33 (p : Fin 50000) (q : Fin 64) (k : Fin 128) : lidx_main_v33 (ix2 p q) k = ix2 p k :=
  funext fun a => match a with
    | ⟨0, _⟩ => rfl
    | ⟨1, _⟩ => rfl

/-- The second product's right index at output entry `(p, q)` and column `k` is `(k, q)`. -/
theorem ridx33 (p : Fin 50000) (q : Fin 64) (k : Fin 128) : ridx_main_v33 (ix2 p q) k = ix2 k q :=
  funext fun a => match a with
    | ⟨0, _⟩ => rfl
    | ⟨1, _⟩ => rfl

/-- The first bias, spread over the rows, is read at the column alone. -/
theorem bias_idx1 (p : Fin 50000) (q : Fin 64) : idx_main_v28 (idx_main_v29 (ix2 p q)) = ix1 q :=
  funext fun a => match a with
    | ⟨0, _⟩ => rfl

/-- The second bias, spread over the rows, is read at the column alone. -/
theorem bias_idx2 (p : Fin 50000) (q : Fin 64) : idx_main_v34 (idx_main_v35 (ix2 p q)) = ix1 q :=
  funext fun a => match a with
    | ⟨0, _⟩ => rfl

/-- The first layer of the reference at entry `(p, q)`: the dense layer on row `p` of the aggregated array and of the
    embedding array. -/
theorem layer1 (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S50000x64, .f32⟩ : BufTy).Contents (Elt Ideal))
    (x4 : (⟨S128x64, .f32⟩ : BufTy).Contents (Elt Ideal)) (x5 : (⟨S64, .f32⟩ : BufTy).Contents (Elt Ideal))
    (p : Fin 50000) (q : Fin 64) :
    val_main_v31 (F := Ideal) x0 x1 x2 x3 x4 x5 (ix2 p q)
      = Cert.Mlp.dense (fun k => val_main_v25 (F := Ideal) x0 x1 x2 (ix2 p k)) (fun k => x3 (ix2 p k))
          (Cert.Mlp.upper x4) (Cert.Mlp.lower x4) (fun q => x5 (ix1 q)) (Ideal.ofBits .f32 0x00000000#32) q := by
  rw [val_main_v31_apply, val_main_v30_apply, val_main_v27_apply, val_main_v29_apply, val_main_v28_apply,
    val_main_call0_v0_apply, val_main_call0_cst_apply]
  unfold val_main_v26
  generalize val_main_v25 (F := Ideal) x0 x1 x2 = A
  rw [bias_idx1, Ideal.maximumf_def, Ideal.addf_def, Ideal.ofBits_def]
  unfold Cert.Mlp.dense
  exact congrArg (fun s => max (s + x5 (ix1 q)) (Ideal.ofBits .f32 0x00000000#32))
    (joined_row_mul_at _ A x3 x4 p q _ _ (lidx27 p q) (ridx27 p q))

/-- The second layer of the reference at entry `(p, q)`: the dense layer on row `p` of the node array and of the first
    layer's result. -/
theorem layer2 (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S50000x64, .f32⟩ : BufTy).Contents (Elt Ideal))
    (x4 : (⟨S128x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal))
    (p : Fin 50000) (q : Fin 64) :
    val_main_v37 (F := Ideal) x0 x1 x2 x3 x4 x5 x6 x7 (ix2 p q)
      = Cert.Mlp.dense (fun k => x0 (ix2 p k)) (fun k => val_main_v31 (F := Ideal) x0 x1 x2 x3 x4 x5 (ix2 p k))
          (Cert.Mlp.upper x6) (Cert.Mlp.lower x6) (fun q => x7 (ix1 q)) (Ideal.ofBits .f32 0x00000000#32) q := by
  rw [val_main_v37_apply, val_main_v36_apply, val_main_v33_apply, val_main_v35_apply, val_main_v34_apply,
    val_main_call1_v0_apply, val_main_call1_cst_apply]
  unfold val_main_v32
  generalize val_main_v31 (F := Ideal) x0 x1 x2 x3 x4 x5 = M
  rw [bias_idx2, Ideal.maximumf_def, Ideal.addf_def, Ideal.ofBits_def]
  unfold Cert.Mlp.dense
  exact congrArg (fun s => max (s + x7 (ix1 q)) (Ideal.ofBits .f32 0x00000000#32))
    (joined_row_mul_at _ x0 M x6 p q _ _ (lidx33 p q) (ridx33 p q))

/-- The reference's result is the specification's `out` on the aggregated array, the embedding array and the node
    array: entry by entry, the second layer on the node row and the first layer's row. -/
theorem ref_eq (x0 : (⟨S50000x64, .f32⟩ : BufTy).Contents (Elt Ideal)) (x1 : (⟨S2x800000, .i32⟩ : BufTy).Contents (Elt Ideal)) (x2 : (⟨S800000, .f32⟩ : BufTy).Contents (Elt Ideal)) (x3 : (⟨S50000x64, .f32⟩ : BufTy).Contents (Elt Ideal)) (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal)) :
    Cert.ReferenceIdeal.Read.val_main_v37 (F := Ideal) x0 x1 x2 x3 x4 x5 x6 x7
      = Cert.Mlp.out (Cert.ReferenceIdeal.Read.val_main_v25 (F := Ideal) x0 x1 x2) x3 x0 x4 x5 x6 x7 := by
  funext i
  obtain ⟨p, q, rfl⟩ : ∃ (p : Fin 50000) (q : Fin 64), i = ix2 p q := ⟨i 0, i 1, eq_ix2 i⟩
  rw [Cert.Mlp.out_ix2, layer2]
  unfold Cert.Mlp.rowOut
  exact congrArg (fun m => Cert.Mlp.dense (fun k => x0 (ix2 p k)) m (Cert.Mlp.upper x6) (Cert.Mlp.lower x6)
    (fun q => x7 (ix1 q)) (Ideal.ofBits .f32 0x00000000#32) q) (funext fun k => layer1 x0 x1 x2 x3 x4 x5 p k)

end Cert.Mlp.Ref

end
-- ==== Proof.lean ====
/- The proof of `Cert.Claim`: a graph layer's two stacked dense layers computed block by block against the same layers
   computed on joined rows.

   Both programs start with the same host operations: the rows of the node array are gathered along the edges'
   sources, weighted, added up per destination node and divided by the edge count floored at one — the aggregated
   array. The kernel then runs over ten blocks of 5000 rows. On each block it multiplies the aggregated rows by the
   upper half of the message weights and the embedding rows by the lower half, adds the two products and the bias and
   floors the sum at zero; the message rows go through the update weights with the nodes' own rows in the same way. The
   reference joins the aggregated and the embedding array side by side, multiplies the joined rows by the whole 128 × 64
   weight matrix, adds the bias and floors at zero, and does the same again with the node array joined to the message.

   On the extended reals a change of float format is the identity and a matrix product is the exact sum of products, so
   entry `(p, q)` of either result depends on row `p` of the three arrays alone, and the two differ only in writing the
   sum over the 128 joined columns as one sum or as the sum over the first 64 plus the sum over the last 64
   (`Cert.Mlp.sum_halves`: associativity and commutativity of addition, so the precondition is never used). The
   aggregated array is carried through both sides as one unopened function of the arguments.

   The modules: `Proof/Spec.lean` states the result as one function `Cert.Mlp.out` of the arrays;
   `Proof/KernelPayload.lean` reads the body's stored block at an entry; `Proof/HostPrefix.lean` and
   `Proof/Blocks.lean` read the windows' blocks as entries of the arguments; `Proof/KernelValue.lean` goes from the ten
   blocks written back to the whole result array; `Proof/RefValue.lean` reads the reference's result at an entry. The
   three frames are the generated frame runs, and the idealization rewrote nothing, so `preserves` holds trivially. -/
import proofs.«181001_j67405216744187_1_alg».proof.Defs
import proofs.«181001_j67405216744187_1_alg».proof.Proof.Gen.Kernel
import proofs.«181001_j67405216744187_1_alg».proof.Proof.Gen.Kernel.Skeleton
import proofs.«181001_j67405216744187_1_alg».proof.Proof.Gen.Kernel.Launch
import proofs.«181001_j67405216744187_1_alg».proof.Proof.Gen.Kernel.Points
import proofs.«181001_j67405216744187_1_alg».proof.Proof.Gen.Kernel.Frame
import proofs.«181001_j67405216744187_1_alg».proof.Proof.Gen.KernelIdeal
import proofs.«181001_j67405216744187_1_alg».proof.Proof.Gen.KernelIdeal.Skeleton
import proofs.«181001_j67405216744187_1_alg».proof.Proof.Gen.KernelIdeal.Launch
import proofs.«181001_j67405216744187_1_alg».proof.Proof.Gen.KernelIdeal.Points
import proofs.«181001_j67405216744187_1_alg».proof.Proof.Gen.KernelIdeal.Frame
import proofs.«181001_j67405216744187_1_alg».proof.Proof.Gen.ReferenceIdeal
import proofs.«181001_j67405216744187_1_alg».proof.Proof.Gen.KernelIdeal.Value
import proofs.«181001_j67405216744187_1_alg».proof.Proof.Gen.ReferenceIdeal.Run
import proofs.«181001_j67405216744187_1_alg».proof.Proof.Gen.ReferenceIdeal.Read
import proofs.«181001_j67405216744187_1_alg».proof.Proof.Gen.Pre_finite_inputs
import proofs.«181001_j67405216744187_1_alg».proof.Proof.KernelValue
import proofs.«181001_j67405216744187_1_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame run. -/
theorem frame_kernel : Cert.frame_Kernel := fun m ρ _ => Cert.Kernel.Gen.frame m ρ

/-- The same for the kernel read on the extended reals. -/
theorem frame_kernelIdeal : Cert.frame_KernelIdeal := fun m ρ _ => Cert.KernelIdeal.Gen.frame m ρ

/-- The reference runs and leaves its arguments as they were: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `Cert.Mlp.out` of the aggregated
    array, the embedding array, the node array, the two weight matrices and the two bias vectors: the kernel by its ten
    blocks (`Cert.Mlp.Value.run`), the reference by its joined rows (`Cert.Mlp.Ref.ref_eq`). -/
theorem algebraic : Cert.algebraic_KernelIdeal_ReferenceIdeal := by
  intro m ρ m' ρ' _ hagree
  refine ⟨fun c => Cert.Mlp.Value.result m c, Cert.Mlp.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v37_eq, Cert.Mlp.Ref.ref_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
